-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x1024x4096 : Shape := ⟨3, ![8, 1024, 4096]⟩
abbrev S8x1x4096 : Shape := ⟨3, ![8, 1, 4096]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x1x4096 : S_.BroadcastsInDim S8x1x4096 (![] : Fin 0 → Fin S8x1x4096.rank)
  reducesTo_S8x1x4096_S_d0_1_2 : S8x1x4096.ReducesTo [0, 1, 2] S_

variable [Facts]

def fn {F : FTy → Type} [FloatOps F] (main_arg0 : FVec F S8x4096x1024 .f32) (main_arg1 : FVec F S8x1024x4096 .f32) (main_arg2 : FVec F S8x1x4096 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x1x4096 .f32 := Host.absf main_arg2
  let main_cst_2 : FVec F S_ .f32 := constant S_ .f32 0x7F800000#32
  let main_v10 : FVec F S8x1x4096 .f32 := broadcastInDim S8x1x4096 ![] bcast_S_S8x1x4096 main_cst_2
  let main_v11 : IVec S8x1x4096 1 := cmpf .olt main_v9 main_v10
  let main_c_3 : IVec S_ 1 := constantI S_ 1 1#1
  let main_v12 : IVec S_ 1 := (fun x v => Host.reduce IntOp.andi x v reducesTo_S8x1x4096_S_d0_1_2 h_S_) main_v11 main_c_3
  let main_v13 : IVec S_ 1 := andi main_v8 main_v12
  main_v13
-- ==== Kernel.lean ====
abbrev S8x4096x1024 : Shape := ⟨3, ![8, 4096, 1024]⟩
abbrev S8x1024x4096 : Shape := ⟨3, ![8, 1024, 4096]⟩
abbrev S8x1x4096 : Shape := ⟨3, ![8, 1, 4096]⟩
abbrev S8x4096x4096 : Shape := ⟨3, ![8, 4096, 4096]⟩
abbrev S1x2048x1024 : Shape := ⟨3, ![1, 2048, 1024]⟩
abbrev S1x1024x512 : Shape := ⟨3, ![1, 1024, 512]⟩
abbrev S1x1x512 : Shape := ⟨3, ![1, 1, 512]⟩
abbrev S1x2048x512 : Shape := ⟨3, ![1, 2048, 512]⟩
abbrev S2048x1024 : Shape := ⟨2, ![2048, 1024]⟩
abbrev S1024x512 : Shape := ⟨2, ![1024, 512]⟩
abbrev S2048x512 : Shape := ⟨2, ![2048, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S8x1024x4096, .f32⟩
  | .hbm, ⟨2, _⟩ => ⟨S8x1x4096, .f32⟩
  | .hbm, ⟨3, _⟩ => ⟨S8x4096x4096, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1x512, .f32⟩
  | .local _ .vmem, ⟨5, _⟩ => ⟨S1x1x512, .f32⟩
  | .local _ .vmem, ⟨6, _⟩ => ⟨S1x2048x512, .f32⟩
  | .local _ .vmem, ⟨7, _⟩ => ⟨S1x2048x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x512 : S1x512.ShapeCasts S1x512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x1024.size a
  hwx0_0 : ∀ i : grid0.Coords, EltTy.bits .f32 = 32 ∨ (Rect.block (s := S8x4096x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .f32 = 32 ∨ (Rect.block (s := S8x1024x4096) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x4096x4096.size a
  hwx0_3 : ∀ i : grid0.Coords, EltTy.bits .f32 = 32 ∨ (Rect.block (s := S8x4096x4096) S1x2048x512.size (cc0_transform_3 i) (hinb0_3 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x1024x4096 : Shape := ⟨3, ![8, 1024, 4096]⟩
abbrev S8x1x4096 : Shape := ⟨3, ![8, 1, 4096]⟩
abbrev S8x4096x4096 : Shape := ⟨3, ![8, 4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024x4096, .f32⟩
  | .hbm, ⟨2, _⟩ => ⟨S8x1x4096, .f32⟩
  | .hbm, ⟨3, _⟩ => ⟨S8x4096x4096, .f32⟩
  | .hbm, ⟨4, _⟩ => ⟨S8x4096x4096, .f32⟩
  | .hbm, ⟨5, _⟩ => ⟨S8x4096x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S8x1x4096_S8x4096x4096_0_1_2 : S8x1x4096.BroadcastsInDim S8x4096x4096 (![0, 1, 2] : Fin 3 → Fin S8x4096x4096.rank)
  dot_S8x4096x1024_S8x1024x4096_S8x4096x4096_2_1_1_2_0_0_wf : DotDims.WF S8x4096x1024 S8x1024x4096 S8x4096x4096 [2] [1] [1] [2] [0] [0]

variable [Facts₀]

def dot_S8x4096x1024_S8x1024x4096_S8x4096x4096_2_1_1_2_0_0 : DotDims S8x4096x1024 S8x1024x4096 S8x4096x4096 where
  lhsContracting := [2]
  rhsContracting := [1]
  lhsNonContracting := [1]
  rhsNonContracting := [2]
  lhsBatch := [0]
  rhsBatch := [0]
  wf := dot_S8x4096x1024_S8x1024x4096_S8x4096x4096_2_1_1_2_0_0_wf

class Facts : Prop extends Facts₀ where

variable [Facts]
-- ==== Proof.ExpertLayer.lean ====
/-
  One dense layer per expert, entry by entry.

  Eight experts each own a weight matrix with 1024 rows and 4096 columns and one bias row of 4096 entries, and each
  receives 4096 input rows of 1024 features. The layer's output for expert `e`, at input row `r` and output column
  `n`, is

      ∑ k, x e r k · w e k n  +  b e 0 n,

  a sum over the 1024 features followed by the bias, read over the extended reals. Nothing in this file mentions a
  program: it is the function both computations are compared with.
-/
import Idealize.ShloMosaic.PureOps.Ideal
import Idealize.ShloMosaic.Lib.ValueIdx

noncomputable section

namespace Cert.ExpertLayer

open Idealize.ShloMosaic Idealize.ShloMosaic.ValueIdx
open scoped BigOperators

/-- The output entry of expert `e` at input row `r` and output column `n`: the inner product of the row with the
    expert's weight column, plus the expert's bias at that column. -/
def entry (x : FVec Ideal ⟨3, ![8, 4096, 1024]⟩ .f32) (w : FVec Ideal ⟨3, ![8, 1024, 4096]⟩ .f32)
    (b : FVec Ideal ⟨3, ![8, 1, 4096]⟩ .f32) (e : Fin 8) (r : Fin 4096) (n : Fin 4096) : EReal :=
  (∑ k : Fin 1024, x (ix3 e r k) * w (ix3 e k n)) + b (ix3 e (0 : Fin 1) n)

/-- The whole output array: `entry` at each index's three coordinates. -/
def layer (x : FVec Ideal ⟨3, ![8, 4096, 1024]⟩ .f32) (w : FVec Ideal ⟨3, ![8, 1024, 4096]⟩ .f32)
    (b : FVec Ideal ⟨3, ![8, 1, 4096]⟩ .f32) : FVec Ideal ⟨3, ![8, 4096, 4096]⟩ .f32 :=
  fun i => entry x w b (i 0) (i 1) (i 2)

/-- The array at an index written by its coordinates. -/
theorem layer_ix3 (x : FVec Ideal ⟨3, ![8, 4096, 1024]⟩ .f32) (w : FVec Ideal ⟨3, ![8, 1024, 4096]⟩ .f32)
    (b : FVec Ideal ⟨3, ![8, 1, 4096]⟩ .f32) (e : Fin 8) (r : Fin 4096) (n : Fin 4096) :
    layer x w b (ix3 e r n) = entry x w b e r n := rfl

end Cert.ExpertLayer

end
-- ==== Proof.ReferenceLayer.lean ====
/-
  The reference computes the layer.

  The reference multiplies the inputs by the weights expert by expert — a product batched over the expert axis and
  contracted over the 1024 features — spreads each expert's bias row over the 4096 input rows, and adds. Read at
  an index `(e, r, n)` the product is `∑ k, x e r k · w e k n` and the spread bias is `b e 0 n`, so the sum is the
  layer's entry: the two agree term by term, in the same order, and no property of the numbers is used.
-/
import proofs.«144634_j31885837205580_2_alg».proof.Proof.Gen.ReferenceIdeal.Read
import proofs.«144634_j31885837205580_2_alg».proof.Proof.ExpertLayer

noncomputable section

namespace Cert.ReferenceIdeal.RefValue

open Cert.ReferenceIdeal Cert.ReferenceIdeal.Read Idealize.ShloMosaic Idealize.ShloMosaic.ValueIdx
open scoped BigOperators

/-- The left factor's index at contraction position `k`: same expert, same row, feature `k`. -/
theorem lhs_index (i : S8x4096x4096.Idx) (k : Fin 1024) : lidx_main_v0 i k = ix3 (i 0) (i 1) k :=
  funext fun a => by match a with | ⟨0, _⟩ => rfl | ⟨1, _⟩ => rfl | ⟨2, _⟩ => rfl

/-- The right factor's index at contraction position `k`: same expert, feature `k`, same column. -/
theorem rhs_index (i : S8x4096x4096.Idx) (k : Fin 1024) : ridx_main_v0 i k = ix3 (i 0) k (i 2) :=
  funext fun a => by match a with | ⟨0, _⟩ => rfl | ⟨1, _⟩ => rfl | ⟨2, _⟩ => rfl

/-- The bias index: same expert, the one bias row, same column. -/
theorem bias_index (i : S8x4096x4096.Idx) : idx_main_v1 i = ix3 (i 0) (0 : Fin 1) (i 2) :=
  funext fun a => by match a with | ⟨0, _⟩ => rfl | ⟨1, _⟩ => rfl | ⟨2, _⟩ => rfl

/-- The reference's result, as a function of its three arguments, is the layer. -/
theorem reference_eq_layer (x : FVec Ideal S8x4096x1024 .f32) (w : FVec Ideal S8x1024x4096 .f32)
    (b : FVec Ideal S8x1x4096 .f32) :
    val_main_v2 (F := Ideal) x w b = Cert.ExpertLayer.layer x w b := by
  funext i
  rw [val_main_v2_apply, val_main_v0_apply, val_main_v1_apply, bias_index]
  show (∑ k : Fin 1024, x (lidx_main_v0 i k) * w (ridx_main_v0 i k)) + b (ix3 (i 0) (0 : Fin 1) (i 2))
      = (∑ k : Fin 1024, x (ix3 (i 0) (i 1) k) * w (ix3 (i 0) k (i 2))) + b (ix3 (i 0) (0 : Fin 1) (i 2))
  exact congrArg (· + b (ix3 (i 0) (0 : Fin 1) (i 2)))
    (Finset.sum_congr rfl fun k _ => by rw [lhs_index, rhs_index]; rfl)

end Cert.ReferenceIdeal.RefValue

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.TileEntry.lean ====
/-
  One tile of the kernel, entry by entry.

  At each step the kernel holds 2048 input rows of one expert (all 1024 features), 512 columns of that expert's
  weights (all 1024 rows) and the matching 512 bias entries. It multiplies the row block by the column block, starting
  from zero, spreads the bias row over the 2048 rows, and adds. So the tile's entry at row `r` and column `c` is

      ∑ k, rows r k · cols k c  +  bias c,

  each block carrying a leading axis of length one that the reshapes only drop and restore.
-/
import proofs.«144634_j31885837205580_2_alg».proof.Proof.Gen.KernelIdeal.Skeleton
import proofs.«144634_j31885837205580_2_alg».proof.Proof.LibPlainMatmul
import Idealize.ShloMosaic.Lib.ValueLayout
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx
open scoped BigOperators

/-- The kernel's product contracts the row block's second axis with the column block's first: the plain matrix
    product of a 2048-by-1024 block with a 1024-by-512 block. -/
theorem dot_plain : dot_S2048x1024_S1024x512_S2048x512_1_0_0_1_n_n = DotDims.plain 2048 1024 512 := rfl

/-- The product of the two blocks, from zero, at row `r` and column `c`: the sum over the 1024 features, each block
    read under its leading unit axis. -/
theorem product_entry (v0 : FVec Ideal S1x2048x1024 .f32) (v2 : FVec Ideal S1x1024x512 .f32) (r : Fin 2048) (c : Fin 512) :
    matmul dot_S2048x1024_S1024x512_S2048x512_1_0_0_1_n_n none
        (shapeCast S2048x1024 v0 shapeCasts_S1x2048x1024_S2048x1024) (shapeCast S1024x512 v2 shapeCasts_S1x1024x512_S1024x512)
        (constant (F := Ideal) S2048x512 .f32 0x00000000#32) (ix2 r c)
      = ∑ k : Fin 1024, v0 (ix3 (0 : Fin 1) r k) * v2 (ix3 (0 : Fin 1) k c) := by
  rw [dot_plain]
  refine (Cert.LibPlainMatmul.matmul_zero_apply 2048 1024 512 none _ _ r c).trans ?_
  exact Finset.sum_congr rfl fun k _ => by rw [shapeCast_1ab_ab_apply, shapeCast_1ab_ab_apply]

/-- The bias block spread over the rows, at row `r` and column `c`: the block's one entry at column `c`. -/
theorem bias_entry (v5 : FVec Ideal S1x1x512 .f32) (r : Fin 2048) (c : Fin 512) :
    broadcastTo S2048x512 (shapeCast S1x512 (shapeCast S1x512 v5 shapeCasts_S1x1x512_S1x512) shapeCasts_S1x512_S1x512)
        broadcasts_S1x512_S2048x512 (ix2 r c)
      = v5 (ix3 (0 : Fin 1) (0 : Fin 1) c) := by
  refine (broadcastTo_1b_ab_apply _ _ r c).trans ?_
  rw [shapeCast_self]
  exact shapeCast_1ab_ab_apply v5 _ (0 : Fin 1) c

/-- THE TILE AT AN ENTRY: what the kernel stores at row `r`, column `c` of its output block. -/
theorem tile_entry (v0 : FVec Ideal S1x2048x1024 .f32) (v2 : FVec Ideal S1x1024x512 .f32) (v5 : FVec Ideal S1x1x512 .f32)
    (u : Fin 1) (r : Fin 2048) (c : Fin 512) :
    k0_pay1 (F := Ideal) v0 v2 v5 (ix3 u r c)
      = (∑ k : Fin 1024, v0 (ix3 (0 : Fin 1) r k) * v2 (ix3 (0 : Fin 1) k c)) + v5 (ix3 (0 : Fin 1) (0 : Fin 1) c) := by
  unfold k0_pay1
  refine (shapeCast_ab_1ab_apply _ _ u r c).trans ?_
  refine (addf_apply _ _ (ix2 r c)).trans ?_
  rw [product_entry, bias_entry]

end Cert.KernelIdeal.Tile

end
-- ==== Proof.TilesToArray.lean ====
/-
  From tiles to the whole output.

  The kernel walks a grid of 8 experts by 2 row blocks by 8 column blocks. At the step for expert `e`, row block `p`
  and column block `q` it holds rows `2048·p …` of expert `e`'s inputs with all their features, columns `512·q …` of
  that expert's weights with all their rows, the same columns of its bias row, and it writes the output tile whose
  corner is `(e, 2048·p, 512·q)`. So the input entries a tile's entry is computed from are exactly the ones the
  layer's entry at the same output index is a function of, and the tile is the layer restricted to it. The 128 tiles
  are disjoint and fill the output, hence the output array ends as the layer of the three arguments.
-/
import proofs.«144634_j31885837205580_2_alg».proof.Proof.Gen.KernelIdeal.Value
import proofs.«144634_j31885837205580_2_alg».proof.Proof.TileEntry
import proofs.«144634_j31885837205580_2_alg».proof.Proof.ExpertLayer
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- Every access of the body starts at the corner of its block. -/
theorem offsets_zero : (![0, 0, 0] : Fin 3 → Nat) = fun _ => 0 := funext fun a => by fin_cases a <;> rfl

/-! ## Where each block sits -/

/-- At every step the input blocks sit where the output tile says: the row block shares the tile's expert and row
    block and starts at feature 0; the weight and bias blocks share its expert and column block and start at row 0.
    The tile's block coordinates stay inside 8 by 2 by 8. -/
theorem tile_corner : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0
    ∧ win0_1.index t (2 : Fin 3) = win0_3.index t (2 : Fin 3)
    ∧ win0_2.index t (0 : Fin 3) = win0_3.index t (0 : Fin 3) ∧ win0_2.index t (1 : Fin 3) = 0
    ∧ win0_2.index t (2 : Fin 3) = win0_3.index t (2 : Fin 3)
    ∧ win0_3.index t (0 : Fin 3) ≤ 7 ∧ win0_3.index t (1 : Fin 3) ≤ 1 ∧ win0_3.index t (2 : Fin 3) ≤ 7 :=
  (by decide +kernel : ∀ t : Fin grid0.N, _)

/-- Every triple of block coordinates is some step's tile. -/
theorem tile_onto : ∀ (q0 : Fin 8) (q1 : Fin 2) (q2 : Fin 8), ∃ t : Fin cfg0.N, win0_3.index t = ![q0.val, q1.val, q2.val] :=
  (by decide +kernel : ∀ (q0 : Fin 8) (q1 : Fin 2) (q2 : Fin 8), ∃ t : Fin grid0.N, win0_3.index t = ![q0.val, q1.val, q2.val])

/-! ## The input blocks as entries of the arguments -/

/-- The row block at row `r`, feature `k` is the input array at the tile's expert, the tile's row block shifted by
    `r`, feature `k`. -/
theorem rows_read (c : Dev nD) (t : Fin cfg0.N) (r : Fin 2048) (k : Fin 1024) (e : Fin 8) (R : Fin 4096)
    (he : e.val = win0_3.index t (0 : Fin 3)) (hR : R.val = win0_3.index t (1 : Fin 3) * 2048 + r.val) :
    (iblk m c 0 t : Vec Ideal S1x2048x1024 .f32) (ix3 (0 : Fin 1) r k)
      = (V m c main_arg0 : S8x4096x1024.Idx → EReal) (ix3 e R k) := by
  obtain ⟨a0, a1, a2, -⟩ := tile_corner t
  show V m c main_arg0 (((cfg0.win 0).blk t).view.emb (ix3 (0 : Fin 1) r k)) = V m c main_arg0 (ix3 e R k)
  refine congrArg _ (funext fun a => Fin.ext ?_)
  match a with
  | ⟨0, _⟩ => show win0_0.index t (0 : Fin 3) * 1 + 1 * 0 = e.val; omega
  | ⟨1, _⟩ => show win0_0.index t (1 : Fin 3) * 2048 + 1 * r.val = R.val; omega
  | ⟨2, _⟩ => show win0_0.index t (2 : Fin 3) * 1024 + 1 * k.val = k.val; omega

/-- The weight block at feature `k`, column `n` is the weight array at the tile's expert, feature `k`, the tile's
    column block shifted by `n`. -/
theorem cols_read (c : Dev nD) (t : Fin cfg0.N) (k : Fin 1024) (n : Fin 512) (e : Fin 8) (N : Fin 4096)
    (he : e.val = win0_3.index t (0 : Fin 3)) (hN : N.val = win0_3.index t (2 : Fin 3) * 512 + n.val) :
    (iblk m c 1 t : Vec Ideal S1x1024x512 .f32) (ix3 (0 : Fin 1) k n)
      = (V m c main_arg1 : S8x1024x4096.Idx → EReal) (ix3 e k N) := by
  obtain ⟨-, -, -, b0, b1, b2, -⟩ := tile_corner t
  show V m c main_arg1 (((cfg0.win 1).blk t).view.emb (ix3 (0 : Fin 1) k n)) = V m c main_arg1 (ix3 e k N)
  refine congrArg _ (funext fun a => Fin.ext ?_)
  match a with
  | ⟨0, _⟩ => show win0_1.index t (0 : Fin 3) * 1 + 1 * 0 = e.val; omega
  | ⟨1, _⟩ => show win0_1.index t (1 : Fin 3) * 1024 + 1 * k.val = k.val; omega
  | ⟨2, _⟩ => show win0_1.index t (2 : Fin 3) * 512 + 1 * n.val = N.val; omega

/-- The bias block at column `n` is the bias array at the tile's expert, its one row, the tile's column block shifted
    by `n`. -/
theorem bias_read (c : Dev nD) (t : Fin cfg0.N) (n : Fin 512) (e : Fin 8) (N : Fin 4096)
    (he : e.val = win0_3.index t (0 : Fin 3)) (hN : N.val = win0_3.index t (2 : Fin 3) * 512 + n.val) :
    (iblk m c 2 t : Vec Ideal S1x1x512 .f32) (ix3 (0 : Fin 1) (0 : Fin 1) n)
      = (V m c main_arg2 : S8x1x4096.Idx → EReal) (ix3 e (0 : Fin 1) N) := by
  obtain ⟨-, -, -, -, -, -, d0, d1, d2, -⟩ := tile_corner t
  show V m c main_arg2 (((cfg0.win 2).blk t).view.emb (ix3 (0 : Fin 1) (0 : Fin 1) n)) = V m c main_arg2 (ix3 e (0 : Fin 1) N)
  refine congrArg _ (funext fun a => Fin.ext ?_)
  match a with
  | ⟨0, _⟩ => show win0_2.index t (0 : Fin 3) * 1 + 1 * 0 = e.val; omega
  | ⟨1, _⟩ => show win0_2.index t (1 : Fin 3) * 1 + 1 * 0 = 0; omega
  | ⟨2, _⟩ => show win0_2.index t (2 : Fin 3) * 512 + 1 * n.val = N.val; omega

/-! ## A tile is the layer restricted to it -/

/-- What the step writes at the tile's entry `j` is the layer's entry at the output index `i` lying under `j`:
    the tile's expert, its row block shifted by `j`'s row, its column block shifted by `j`'s column. -/
theorem tile_is_layer (c : Dev nD) (t : Fin cfg0.N) (j : S1x2048x512.Idx) (i : S8x4096x4096.Idx)
    (h0 : (i 0).val = win0_3.index t (0 : Fin 3))
    (h1 : (i 1).val = win0_3.index t (1 : Fin 3) * 2048 + (j 1).val)
    (h2 : (i 2).val = win0_3.index t (2 : Fin 3) * 512 + (j 2).val) :
    k0_pay1 (F := Ideal) (iblk m c 0 t) (iblk m c 1 t) (iblk m c 2 t) j
      = Cert.ExpertLayer.layer (V m c main_arg0) (V m c main_arg1) (V m c main_arg2) i := by
  refine (congrArg (k0_pay1 (F := Ideal) (iblk m c 0 t) (iblk m c 1 t) (iblk m c 2 t)) (eq_ix3 j)).trans ?_
  refine (Cert.KernelIdeal.Tile.tile_entry _ _ _ (j 0) (j 1) (j 2)).trans ?_
  show _ = Cert.ExpertLayer.entry (V m c main_arg0) (V m c main_arg1) (V m c main_arg2) (i 0) (i 1) (i 2)
  unfold Cert.ExpertLayer.entry
  rw [bias_read m c t (j 2) (i 0) (i 2) h0 h2]
  refine congrArg (· + _) (Finset.sum_congr rfl fun k _ => ?_)
  rw [rows_read m c t (j 1) k (i 0) (i 1) h0 h1, cols_read m c t k (j 2) (i 0) (i 2) h0 h2]

/-- WHAT A STEP WRITES BACK is its tile of the layer of the three arguments. -/
theorem flushed_eq (c : Dev nD) (t : Fin cfg0.N) :
    (dats m 0 c).flushed 3 t = ((cfg0.win 3).blk t).view.read (Elt Ideal)
      (Cert.ExpertLayer.layer (V m c main_arg0) (V m c main_arg1) (V m c main_arg2)) := by
  rw [Cert.KernelIdeal.Value.flushed3]
  unfold out0_3
  rw [View.canon_unit_zero offsets_zero]
  simp only [View.ld_unit_zero (S := S1x2048x1024) offsets_zero, View.ld_unit_zero (S := S1x1024x512) offsets_zero,
    View.ld_unit_zero (S := S1x1x512) offsets_zero]
  funext j
  show k0_pay1 (F := Ideal) (iblk m c 0 t) (iblk m c 1 t) (iblk m c 2 t) j
      = Cert.ExpertLayer.layer (V m c main_arg0) (V m c main_arg1) (V m c main_arg2) (((cfg0.win 3).blk t).view.emb j)
  have hj : (j 0).val < 1 := (j 0).isLt
  refine tile_is_layer m c t j _ ?_ ?_ ?_
  · show win0_3.index t (0 : Fin 3) * 1 + 1 * (j 0).val = win0_3.index t (0 : Fin 3); omega
  · show win0_3.index t (1 : Fin 3) * 2048 + 1 * (j 1).val = win0_3.index t (1 : Fin 3) * 2048 + (j 1).val; omega
  · show win0_3.index t (2 : Fin 3) * 512 + 1 * (j 2).val = win0_3.index t (2 : Fin 3) * 512 + (j 2).val; omega

/-! ## The tiles fill the output -/

/-- An output index is in a step's tile iff each coordinate is in the tile's range on its axis. -/
theorem mem_tile (t : Fin cfg0.N) (i : S8x4096x4096.Idx) :
    i ∈ ((cfg0.win 3).blk t).view.set ↔ ∀ a : Fin 3, win0_3.index t a * S1x2048x512.size a ≤ (i a).val
      ∧ (i a).val < win0_3.index t a * S1x2048x512.size a + S1x2048x512.size a := by
  show i ∈ ((View.whole main_v0).slice (win0_3.rect t)).set ↔ _
  rw [View.set_slice_whole, Rect.mem_set_unit]
  exact Iff.rfl

/-- Every output index is in the tile of the step for its expert, its row divided by 2048 and its column divided
    by 512. -/
theorem tiles_cover (i : S8x4096x4096.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 4096 := (i 2).isLt
  obtain ⟨t, ht⟩ := tile_onto ⟨(i 0).val, hi0⟩ ⟨(i 1).val / 2048, by omega⟩ ⟨(i 2).val / 512, by omega⟩
  have q0 : win0_3.index t (0 : Fin 3) = (i 0).val := congrFun ht 0
  have q1 : win0_3.index t (1 : Fin 3) = (i 1).val / 2048 := congrFun ht 1
  have q2 : win0_3.index t (2 : Fin 3) = (i 2).val / 512 := congrFun ht 2
  refine ⟨t, flush0_3 t, ?_⟩
  rw [mem_tile]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 512 ≤ (i 2).val ∧ (i 2).val < win0_3.index t (2 : Fin 3) * 512 + 512; omega

/-- THE OUTPUT ARRAY after the last step is the layer of the three arguments. -/
theorem final (c : Dev nD) : (dats m 0 c).arrAt 3 cfg0.N
    = Cert.ExpertLayer.layer (m ((c : Thread nD τ).loc main_arg0)) (m ((c : Thread nD τ).loc main_arg1))
        (m ((c : Thread nD τ).loc main_arg2)) :=
  (dats m 0 c).arrAt_eq_of_cover 3
    (Cert.ExpertLayer.layer (V m c main_arg0) (V m c main_arg1) (V m c main_arg2))
    (fun t _ => flushed_eq m c t) tiles_cover

/-! ## The run, read -/

/-- Every fair execution of the kernel ends with the output array at the layer of the arguments, which are unchanged. -/
theorem run : θ_run defs (onTc (τ := τ) (main (F := Ideal))) ⟨m, fun _ => 0, ρ⟩ fun r => ∀ c : Dev nD,
      r.2.mem ((c : Thread nD τ).loc main_v0)
        = Cert.ExpertLayer.layer (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Tiles

end
-- ==== Proof.lean ====
/-
  The kernel and the reference compute one dense layer per expert.

  For eight experts, 4096 input rows of 1024 features each, weights of 1024 by 4096 per expert and one bias row per
  expert, both programs produce, at expert `e`, row `r` and column `n`,

      ∑ k, x e r k · w e k n  +  b e 0 n

  over the extended reals (`Cert.ExpertLayer.layer`). The reference does it with one product batched over the
  experts, a bias row spread over the rows, and one addition (`Cert.ReferenceIdeal.RefValue.reference_eq_layer`). The
  kernel does it tile by tile — 2048 rows by 512 columns of one expert per step, the 1024 features kept whole, so that
  no sum is ever split — and its 128 tiles fill the output (`Cert.KernelIdeal.Tiles.run`). Both sides add the same
  1024 products in the same order and then the same bias entry, so the equality needs no law of arithmetic beyond
  reading both sums at an index, and it holds for all extended-real inputs: finiteness of the inputs is not used.
  The kernel's idealization rewrote nothing, so it is the kernel's own text read over the extended reals.
-/
import proofs.«144634_j31885837205580_2_alg».proof.Defs
import proofs.«144634_j31885837205580_2_alg».proof.Proof.Gen.Kernel
import proofs.«144634_j31885837205580_2_alg».proof.Proof.Gen.Kernel.Skeleton
import proofs.«144634_j31885837205580_2_alg».proof.Proof.Gen.Kernel.Launch
import proofs.«144634_j31885837205580_2_alg».proof.Proof.Gen.Kernel.Points
import proofs.«144634_j31885837205580_2_alg».proof.Proof.Gen.Kernel.Frame
import proofs.«144634_j31885837205580_2_alg».proof.Proof.Gen.KernelIdeal
import proofs.«144634_j31885837205580_2_alg».proof.Proof.Gen.KernelIdeal.Skeleton
import proofs.«144634_j31885837205580_2_alg».proof.Proof.Gen.KernelIdeal.Launch
import proofs.«144634_j31885837205580_2_alg».proof.Proof.Gen.KernelIdeal.Points
import proofs.«144634_j31885837205580_2_alg».proof.Proof.Gen.KernelIdeal.Frame
import proofs.«144634_j31885837205580_2_alg».proof.Proof.Gen.ReferenceIdeal
import proofs.«144634_j31885837205580_2_alg».proof.Proof.Gen.KernelIdeal.Value
import proofs.«144634_j31885837205580_2_alg».proof.Proof.Gen.ReferenceIdeal.Run
import proofs.«144634_j31885837205580_2_alg».proof.Proof.Gen.ReferenceIdeal.Read
import proofs.«144634_j31885837205580_2_alg».proof.Proof.Gen.Pre_finite_inputs
import Idealize.ShloMosaic.Adequacy
import Idealize.ShloMosaic.Init
import proofs.«144634_j31885837205580_2_alg».proof.Proof.ExpertLayer
import proofs.«144634_j31885837205580_2_alg».proof.Proof.ReferenceLayer
import proofs.«144634_j31885837205580_2_alg».proof.Proof.TilesToArray

noncomputable section

namespace Cert.Proof

open Idealize.ShloMosaic Idealize.ShloMosaic.TcCoe Idealize.SL.Sem

/-- The kernel, word by word, runs to the end and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From arguments that agree, the kernel's output array and the reference's result are both the layer of those
    arguments. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v2_eq _ _ _).trans (Cert.ReferenceIdeal.RefValue.reference_eq_layer _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
